-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x18 : Shape := ⟨2, ![1048576, 18]⟩
abbrev S1048576 : Shape := ⟨1, ![1048576]⟩
abbrev S20x36 : Shape := ⟨2, ![20, 36]⟩
abbrev S36 : Shape := ⟨1, ![36]⟩
abbrev S18x36 : Shape := ⟨2, ![18, 36]⟩
abbrev S_ : Shape := ⟨0, ![]⟩

class Facts : Prop where
  bcast_S_S1048576x18 : S_.BroadcastsInDim S1048576x18 (![] : Fin 0 → Fin S1048576x18.rank)
  reducesTo_S1048576x18_S_d0_1 : S1048576x18.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S20x36 : S_.BroadcastsInDim S20x36 (![] : Fin 0 → Fin S20x36.rank)
  reducesTo_S20x36_S_d0_1 : S20x36.ReducesTo [0, 1] S_
  bcast_S_S36 : S_.BroadcastsInDim S36 (![] : Fin 0 → Fin S36.rank)
  reducesTo_S36_S_d0 : S36.ReducesTo [0] S_
  bcast_S_S18x36 : S_.BroadcastsInDim S18x36 (![] : Fin 0 → Fin S18x36.rank)
  reducesTo_S18x36_S_d0_1 : S18x36.ReducesTo [0, 1] S_

variable [Facts]

def fn_part1 {F : FTy → Type} [FloatOps F] (main_arg4 : FVec F S18x36 .f32) (main_v13 : IVec S_ 1) (main_v16 : IVec S36 1) : IVec S_ 1 :=
  let main_c_5 : IVec S_ 1 := constantI S_ 1 1#1
  let main_v17 : IVec S_ 1 := (fun x v => Host.reduce IntOp.andi x v reducesTo_S36_S_d0 h_S_) main_v16 main_c_5
  let main_v18 : IVec S_ 1 := andi main_v13 main_v17
  let main_v19 : FVec F S18x36 .f32 := Host.absf main_arg4
  let main_cst_6 : FVec F S_ .f32 := constant S_ .f32 0x7F800000#32
  let main_v20 : FVec F S18x36 .f32 := broadcastInDim S18x36 ![] bcast_S_S18x36 main_cst_6
  let main_v21 : IVec S18x36 1 := cmpf .olt main_v19 main_v20
  let main_c_7 : IVec S_ 1 := constantI S_ 1 1#1
  let main_v22 : IVec S_ 1 := (fun x v => Host.reduce IntOp.andi x v reducesTo_S18x36_S_d0_1 h_S_) main_v21 main_c_7
  let main_v23 : IVec S_ 1 := andi main_v18 main_v22
  main_v23

def fn {F : FTy → Type} [FloatOps F] (main_arg0 : FVec F S1048576x18 .f32) (main_arg1 : FVec F S1048576 .f32) (main_arg2 : FVec F S20x36 .f32) (main_arg3 : FVec F S36 .f32) (main_arg4 : FVec F S18x36 .f32) : IVec S_ 1 :=
  let main_v0 : FVec F S1048576x18 .f32 := Host.absf main_arg0
  let main_cst : FVec F S_ .f32 := constant S_ .f32 0x7F800000#32
  let main_v1 : FVec F S1048576x18 .f32 := broadcastInDim S1048576x18 ![] bcast_S_S1048576x18 main_cst
  let main_v2 : IVec S1048576x18 1 := cmpf .olt main_v0 main_v1
  let main_c : IVec S_ 1 := constantI S_ 1 1#1
  let main_v3 : IVec S_ 1 := (fun x v => Host.reduce IntOp.andi x v reducesTo_S1048576x18_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S20x36 .f32 := Host.absf main_arg2
  let main_cst_2 : FVec F S_ .f32 := constant S_ .f32 0x7F800000#32
  let main_v10 : FVec F S20x36 .f32 := broadcastInDim S20x36 ![] bcast_S_S20x36 main_cst_2
  let main_v11 : IVec S20x36 1 := cmpf .olt main_v9 main_v10
  let main_c_3 : IVec S_ 1 := constantI S_ 1 1#1
  let main_v12 : IVec S_ 1 := (fun x v => Host.reduce IntOp.andi x v reducesTo_S20x36_S_d0_1 h_S_) main_v11 main_c_3
  let main_v13 : IVec S_ 1 := andi main_v8 main_v12
  let main_v14 : FVec F S36 .f32 := Host.absf main_arg3
  let main_cst_4 : FVec F S_ .f32 := constant S_ .f32 0x7F800000#32
  let main_v15 : FVec F S36 .f32 := broadcastInDim S36 ![] bcast_S_S36 main_cst_4
  let main_v16 : IVec S36 1 := cmpf .olt main_v14 main_v15
  fn_part1 (F := F) main_arg4 main_v13 main_v16
-- ==== Kernel.lean ====
abbrev S1048576x18 : Shape := ⟨2, ![1048576, 18]⟩
abbrev S1048576 : Shape := ⟨1, ![1048576]⟩
abbrev S20x36 : Shape := ⟨2, ![20, 36]⟩
abbrev S36 : Shape := ⟨1, ![36]⟩
abbrev S18x36 : Shape := ⟨2, ![18, 36]⟩
abbrev S1x36 : Shape := ⟨2, ![1, 36]⟩
abbrev S36x1 : Shape := ⟨2, ![36, 1]⟩
abbrev S8192x18 : Shape := ⟨2, ![8192, 18]⟩
abbrev S8192 : Shape := ⟨1, ![8192]⟩
abbrev S18x8192 : Shape := ⟨2, ![18, 8192]⟩
abbrev S1x8192 : Shape := ⟨2, ![1, 8192]⟩
abbrev S36x8192 : Shape := ⟨2, ![36, 8192]⟩

abbrev nBuf : Space → Nat
  | .hbm => 15
  | .vmem => 11
  | .smem => 0
  | _ => 0

abbrev bufTy : (tb : Table) → Fin (tcTables nBuf tb) → BufTy
  | .hbm, ⟨0, _⟩ => ⟨S1048576x18, .f32⟩
  | .hbm, ⟨1, _⟩ => ⟨S1048576, .f32⟩
  | .hbm, ⟨2, _⟩ => ⟨S20x36, .f32⟩
  | .hbm, ⟨3, _⟩ => ⟨S36, .f32⟩
  | .hbm, ⟨4, _⟩ => ⟨S18x36, .f32⟩
  | .hbm, ⟨5, _⟩ => ⟨S18x36, .f32⟩
  | .hbm, ⟨6, _⟩ => ⟨S1x36, .f32⟩
  | .hbm, ⟨7, _⟩ => ⟨S36, .f32⟩
  | .hbm, ⟨8, _⟩ => ⟨S36x1, .f32⟩
  | .hbm, ⟨9, _⟩ => ⟨S1x36, .f32⟩
  | .hbm, ⟨10, _⟩ => ⟨S36, .f32⟩
  | .hbm, ⟨11, _⟩ => ⟨S36x1, .f32⟩
  | .hbm, ⟨12, _⟩ => ⟨S36x1, .f32⟩
  | .hbm, ⟨13, _⟩ => ⟨S18x36, .bf16⟩
  | .hbm, ⟨14, _⟩ => ⟨S1048576x18, .f32⟩
  | .local _ .vmem, ⟨0, _⟩ => ⟨S8192x18, .f32⟩
  | .local _ .vmem, ⟨1, _⟩ => ⟨S8192x18, .f32⟩
  | .local _ .vmem, ⟨2, _⟩ => ⟨S8192, .f32⟩
  | .local _ .vmem, ⟨3, _⟩ => ⟨S8192, .f32⟩
  | .local _ .vmem, ⟨4, _⟩ => ⟨S18x36, .f32⟩
  | .local _ .vmem, ⟨5, _⟩ => ⟨S36x1, .f32⟩
  | .local _ .vmem, ⟨6, _⟩ => ⟨S36x1, .f32⟩
  | .local _ .vmem, ⟨7, _⟩ => ⟨S36x1, .f32⟩
  | .local _ .vmem, ⟨8, _⟩ => ⟨S18x36, .bf16⟩
  | .local _ .vmem, ⟨9, _⟩ => ⟨S8192x18, .f32⟩
  | .local _ .vmem, ⟨10, _⟩ => ⟨S8192x18, .f32⟩
  | _, _ => ⟨S1048576x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S18x36 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S36x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S18x36 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x18 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S20x36_S18x36_0_0 : S20x36.Slices ![0, 0] S18x36
  slices_S20x36_S1x36_18_0 : S20x36.Slices ![18, 0] S1x36
  shapeCasts_S1x36_S36 : S1x36.ShapeCasts S36
  bcast_S36_S36x1_0 : S36.BroadcastsInDim S36x1 (![0] : Fin 1 → Fin S36x1.rank)
  slices_S20x36_S1x36_19_0 : S20x36.Slices ![19, 0] S1x36
  bitsLt_bf16_f32 : FTy.bits .bf16 < FTy.bits .f32
  inb_S8192x18_S8192x18_0_0 : ∀ a, (![0, 0] : Fin 2 → Nat) a + S8192x18.size a ≤ S8192x18.size a
  h_S8192x18 : 0 < S8192x18.numel
  transposes_S8192x18_p1_0_S18x8192 : S8192x18.Transposes [1, 0] S18x8192
  inb_S8192_S8192_0 : ∀ a, (![0] : Fin 1 → Nat) a + S8192.size a ≤ S8192.size a
  h_S8192 : 0 < S8192.numel
  shapeCasts_S8192_S1x8192 : S8192.ShapeCasts S1x8192
  inb_S18x36_S18x36_0_0 : ∀ a, (![0, 0] : Fin 2 → Nat) a + S18x36.size a ≤ S18x36.size a
  h_S18x36 : 0 < S18x36.numel
  shapeCasts_S18x36_S18x36 : S18x36.ShapeCasts S18x36
  inb_S36x1_S36x1_0_0 : ∀ a, (![0, 0] : Fin 2 → Nat) a + S36x1.size a ≤ S36x1.size a
  h_S36x1 : 0 < S36x1.numel
  shapeCasts_S36x1_S36x1 : S36x1.ShapeCasts S36x1
  broadcasts_S36x1_S36x8192 : S36x1.Broadcasts S36x8192
  broadcasts_S1x8192_S36x8192 : S1x8192.Broadcasts S36x8192
  transposes_S18x8192_p1_0_S8192x18 : S18x8192.Transposes [1, 0] S8192x18
  dot_S18x36_S18x8192_S36x8192_0_0_1_1_n_n_wf : DotDims.WF S18x36 S18x8192 S36x8192 [0] [0] [1] [1] [] []
  dot_S18x36_S36x8192_S18x8192_1_0_0_1_n_n_wf : DotDims.WF S18x36 S36x8192 S18x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x18.size a ≤ S1048576x18.size a
  hwx0_0 : ∀ i : grid0.Coords, EltTy.bits .f32 = 32 ∨ (Rect.block (s := S1048576x18) S8192x18.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1048576.size a
  hwx0_1 : ∀ i : grid0.Coords, EltTy.bits .f32 = 32 ∨ (Rect.block (s := S1048576) S8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S18x36.size a ≤ S18x36.size a
  hwx0_2 : ∀ i : grid0.Coords, EltTy.bits .f32 = 32 ∨ (Rect.block (s := S18x36) S18x36.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S36x1.size a ≤ S36x1.size a
  hwx0_3 : ∀ i : grid0.Coords, EltTy.bits .f32 = 32 ∨ (Rect.block (s := S36x1) S36x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S36x1.size a ≤ S36x1.size a
  hwx0_4 : ∀ i : grid0.Coords, EltTy.bits .f32 = 32 ∨ (Rect.block (s := S36x1) S36x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S36x1.size a ≤ S36x1.size a
  hwx0_5 : ∀ i : grid0.Coords, EltTy.bits .f32 = 32 ∨ (Rect.block (s := S36x1) S36x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S18x36.size a ≤ S18x36.size a
  hwx0_6 : ∀ i : grid0.Coords, EltTy.bits .bf16 = 32 ∨ (Rect.block (s := S18x36) S18x36.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x18.size a ≤ S1048576x18.size a
  hwx0_7 : ∀ i : grid0.Coords, EltTy.bits .f32 = 32 ∨ (Rect.block (s := S1048576x18) S8192x18.size (cc0_transform_7 i) (hinb0_7 i)).WholeWords (EltTy.packing .f32)

variable [Facts₀]

def dot_S18x36_S18x8192_S36x8192_0_0_1_1_n_n : DotDims S18x36 S18x8192 S36x8192 where
  lhsContracting := [0]
  rhsContracting := [0]
  lhsNonContracting := [1]
  rhsNonContracting := [1]
  lhsBatch := []
  rhsBatch := []
  wf := dot_S18x36_S18x8192_S36x8192_0_0_1_1_n_n_wf
def dot_S18x36_S36x8192_S18x8192_1_0_0_1_n_n : DotDims S18x36 S36x8192 S18x8192 where
  lhsContracting := [1]
  rhsContracting := [0]
  lhsNonContracting := [0]
  rhsNonContracting := [1]
  lhsBatch := []
  rhsBatch := []
  wf := dot_S18x36_S36x8192_S18x8192_1_0_0_1_n_n_wf

abbrev win0_0 : Pipeline.Window sig grid0 :=
  Pipeline.Window.ofSpec (Memref.whole main_arg0) S8192x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S18x36.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S36x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S36x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S36x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S18x36.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S8192x18.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x18 : Shape := ⟨2, ![1048576, 18]⟩
abbrev S1048576 : Shape := ⟨1, ![1048576]⟩
abbrev S20x36 : Shape := ⟨2, ![20, 36]⟩
abbrev S36 : Shape := ⟨1, ![36]⟩
abbrev S18x36 : Shape := ⟨2, ![18, 36]⟩
abbrev S_ : Shape := ⟨0, ![]⟩
abbrev S1048576x1 : Shape := ⟨2, ![1048576, 1]⟩
abbrev S1048576x20 : Shape := ⟨2, ![1048576, 20]⟩
abbrev S1048576x36 : Shape := ⟨2, ![1048576, 36]⟩
abbrev S1x36 : Shape := ⟨2, ![1, 36]⟩
abbrev S36x18 : Shape := ⟨2, ![36, 18]⟩

abbrev nBuf : Space → Nat
  | .hbm => 47
  | .vmem => 0
  | .smem => 0
  | _ => 0

abbrev bufTy : (tb : Table) → Fin (tcTables nBuf tb) → BufTy
  | .hbm, ⟨0, _⟩ => ⟨S1048576x18, .f32⟩
  | .hbm, ⟨1, _⟩ => ⟨S1048576, .f32⟩
  | .hbm, ⟨2, _⟩ => ⟨S20x36, .f32⟩
  | .hbm, ⟨3, _⟩ => ⟨S36, .f32⟩
  | .hbm, ⟨4, _⟩ => ⟨S18x36, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1048576x18, .f32⟩
  | .hbm, ⟨9, _⟩ => ⟨S1048576x18, .f32⟩
  | .hbm, ⟨10, _⟩ => ⟨S_, .f32⟩
  | .hbm, ⟨11, _⟩ => ⟨S1048576x18, .f32⟩
  | .hbm, ⟨12, _⟩ => ⟨S1048576x18, .f32⟩
  | .hbm, ⟨13, _⟩ => ⟨S1048576x18, .f32⟩
  | .hbm, ⟨14, _⟩ => ⟨S_, .f32⟩
  | .hbm, ⟨15, _⟩ => ⟨S1048576, .f32⟩
  | .hbm, ⟨16, _⟩ => ⟨S1048576, .f32⟩
  | .hbm, ⟨17, _⟩ => ⟨S_, .f32⟩
  | .hbm, ⟨18, _⟩ => ⟨S1048576, .f32⟩
  | .hbm, ⟨19, _⟩ => ⟨S1048576, .f32⟩
  | .hbm, ⟨20, _⟩ => ⟨S1048576x1, .f32⟩
  | .hbm, ⟨21, _⟩ => ⟨S1048576, .f32⟩
  | .hbm, ⟨22, _⟩ => ⟨S1048576x1, .f32⟩
  | .hbm, ⟨23, _⟩ => ⟨S1048576x20, .f32⟩
  | .hbm, ⟨24, _⟩ => ⟨S1048576x36, .f32⟩
  | .hbm, ⟨25, _⟩ => ⟨S1x36, .f32⟩
  | .hbm, ⟨26, _⟩ => ⟨S1048576x36, .f32⟩
  | .hbm, ⟨27, _⟩ => ⟨S1048576x36, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1048576x36, .f32⟩
  | .hbm, ⟨32, _⟩ => ⟨S1048576x36, .f32⟩
  | .hbm, ⟨33, _⟩ => ⟨S_, .f32⟩
  | .hbm, ⟨34, _⟩ => ⟨S1048576x36, .f32⟩
  | .hbm, ⟨35, _⟩ => ⟨S1048576x36, .f32⟩
  | .hbm, ⟨36, _⟩ => ⟨S1048576x36, .f32⟩
  | .hbm, ⟨37, _⟩ => ⟨S36x18, .f32⟩
  | .hbm, ⟨38, _⟩ => ⟨S1048576x18, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1048576x18, .f32⟩
  | .hbm, ⟨43, _⟩ => ⟨S1048576x18, .f32⟩
  | .hbm, ⟨44, _⟩ => ⟨S_, .f32⟩
  | .hbm, ⟨45, _⟩ => ⟨S1048576x18, .f32⟩
  | .hbm, ⟨46, _⟩ => ⟨S1048576x18, .f32⟩
  | _, _ => ⟨S1048576x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v18 : Ref sig .tc := ⟨.hbm, 46, rfl⟩

abbrev nD : Nat := 1
abbrev τ : Topo := Topo.v7x

variable {F : FTy → Type} [FloatOps F]

class Facts₀ : Prop where
  bcast_S_S1048576x18 : S_.BroadcastsInDim S1048576x18 (![] : Fin 0 → Fin S1048576x18.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x18_S1048576x1_S1048576x1_S1048576x20_d1 : Shape.Concatenates [S1048576x18, S1048576x1, S1048576x1] S1048576x20 1
  bcast_S36_S1x36_1 : S36.BroadcastsInDim S1x36 (![1] : Fin 1 → Fin S1x36.rank)
  bcast_S1x36_S1048576x36_0_1 : S1x36.BroadcastsInDim S1048576x36 (![0, 1] : Fin 2 → Fin S1048576x36.rank)
  bcast_S_S1048576x36 : S_.BroadcastsInDim S1048576x36 (![] : Fin 0 → Fin S1048576x36.rank)
  transposes_S18x36_S36x18_1_0 : S18x36.Transposes [1, 0] S36x18
  dot_S1048576x20_S20x36_S1048576x36_1_0_0_1_n_n_wf : DotDims.WF S1048576x20 S20x36 S1048576x36 [1] [0] [0] [1] [] []
  dot_S1048576x36_S36x18_S1048576x18_1_0_0_1_n_n_wf : DotDims.WF S1048576x36 S36x18 S1048576x18 [1] [0] [0] [1] [] []

variable [Facts₀]

def dot_S1048576x20_S20x36_S1048576x36_1_0_0_1_n_n : DotDims S1048576x20 S20x36 S1048576x36 where
  lhsContracting := [1]
  rhsContracting := [0]
  lhsNonContracting := [0]
  rhsNonContracting := [1]
  lhsBatch := []
  rhsBatch := []
  wf := dot_S1048576x20_S20x36_S1048576x36_1_0_0_1_n_n_wf
def dot_S1048576x36_S36x18_S1048576x18_1_0_0_1_n_n : DotDims S1048576x36 S36x18 S1048576x18 where
  lhsContracting := [1]
  rhsContracting := [0]
  lhsNonContracting := [0]
  rhsNonContracting := [1]
  lhsBatch := []
  rhsBatch := []
  wf := dot_S1048576x36_S36x18_S1048576x18_1_0_0_1_n_n_wf

class Facts : Prop extends Facts₀ where

variable [Facts]
-- ==== Proof.RateLaw.lean ====
/-
  The function both programs compute, one state (one row) at a time.

  A state is 18 species concentrations `x` and a temperature `t`. Each concentration is clamped to [lo, hi] and its
  logarithm taken; reaction `r`'s exponent is the weighted sum of those 18 logarithms, plus a weight times `-1 / (R · t)`,
  plus a weight times `log t`, plus a bias; the exponent is clamped to [-30, 30] and exponentiated, giving the reaction's
  rate; species `s`'s output is the weighted sum of the 36 rates, clamped to [-1e5, 1e5].  All of it is read on the extended
  reals, where the constants are the binary values both programs spell with the same words.

  One program adds the 18 logarithm terms and then the two temperature terms; the other adds all 20 terms of one
  list in one sum.  On the extended reals addition is associative and commutative without any finiteness
  assumption, so a sum over 20 indices is the sum over the first 18 plus the last two (`sum_twenty`); products commute.
-/
import Idealize.ShloMosaic.PureOps.Ideal
import Idealize.ShloMosaic.Lib.ValueIdx

noncomputable section

namespace Cert.Crnn

open Idealize.ShloMosaic Idealize.ShloMosaic.ValueIdx

/-- The lower and upper clamp of a concentration (about 1e-6, and 60). -/
abbrev cLo : EReal := Ideal.ofBits .f32 0x358637BD#32
abbrev cHi : EReal := Ideal.ofBits .f32 0x42700000#32
/-- The gas constant (about 0.0019872) and minus one. -/
abbrev cR : EReal := Ideal.ofBits .f32 0x3B023BBE#32
abbrev cNegOne : EReal := Ideal.ofBits .f32 0xBF800000#32
/-- The clamp of an exponent (-30, 30) and of an output (-1e5, 1e5). -/
abbrev cExpLo : EReal := Ideal.ofBits .f32 0xC1F00000#32
abbrev cExpHi : EReal := Ideal.ofBits .f32 0x41F00000#32
abbrev cOutLo : EReal := Ideal.ofBits .f32 0xC7C35000#32
abbrev cOutHi : EReal := Ideal.ofBits .f32 0x47C35000#32

/-- The logarithm of a concentration clamped to [lo, hi]. -/
def logConc (x : EReal) : EReal := Ideal.log (min cHi (max cLo x))

/-- `-1 / (R · t)`. -/
def invRT (t : EReal) : EReal := Ideal.div cNegOne (cR * t)

/-- Reaction `r`'s rate for a state `(x, t)`: the exponential of its clamped exponent. -/
def rate (x : Fin 18 → EReal) (t : EReal) (win : Fin 18 → Fin 36 → EReal) (wr wl wb : Fin 36 → EReal) (r : Fin 36) : EReal :=
  Ideal.exp (min cExpHi (max cExpLo
    ((∑ s : Fin 18, win s r * logConc (x s)) + wr r * invRT t + wl r * Ideal.log t + wb r)))

/-- Species `s`'s output for a state `(x, t)`: the clamped weighted sum of the 36 rates. -/
def rowOut (x : Fin 18 → EReal) (t : EReal) (win : Fin 18 → Fin 36 → EReal) (wr wl wb : Fin 36 → EReal)
    (wout : Fin 18 → Fin 36 → EReal) (s : Fin 18) : EReal :=
  min cOutHi (max cOutLo (∑ r : Fin 36, wout s r * rate x t win wr wl wb r))

/-- `rowOut` depends on its operands only through their values. -/
theorem rowOut_congr {x x' : Fin 18 → EReal} {t t' : EReal} {win win' : Fin 18 → Fin 36 → EReal}
    {wr wr' wl wl' wb wb' : Fin 36 → EReal} {wout wout' : Fin 18 → Fin 36 → EReal}
    (h0 : ∀ s, x s = x' s) (h1 : t = t') (h2 : ∀ s r, win s r = win' s r) (h3 : ∀ r, wr r = wr' r)
    (h4 : ∀ r, wl r = wl' r) (h5 : ∀ r, wb r = wb' r) (h6 : ∀ s r, wout s r = wout' s r) (s : Fin 18) :
    rowOut x t win wr wl wb wout s = rowOut x' t' win' wr' wl' wb' wout' s := by
  obtain rfl : x = x' := funext h0
  obtain rfl : win = win' := funext fun s => funext (h2 s)
  obtain rfl : wr = wr' := funext h3
  obtain rfl : wl = wl' := funext h4
  obtain rfl : wb = wb' := funext h5
  obtain rfl : wout = wout' := funext fun s => funext (h6 s)
  rw [h1]

/-- The whole result at state `b` and species `s`, from the five argument arrays: rows 0–17 of `w_in` weigh the
    logarithms, row 18 weighs `-1/(R·T)`, row 19 weighs `log T`. -/
def duAt (u : (⟨2, ![1048576, 18]⟩ : Shape).Idx → EReal) (T : (⟨1, ![1048576]⟩ : Shape).Idx → EReal)
    (w_in : (⟨2, ![20, 36]⟩ : Shape).Idx → EReal) (w_b : (⟨1, ![36]⟩ : Shape).Idx → EReal)
    (w_out : (⟨2, ![18, 36]⟩ : Shape).Idx → EReal) (b : Fin 1048576) (s : Fin 18) : EReal :=
  rowOut (fun s' => u (ix2 b s')) (T (ix1 b))
    (fun s' r => w_in (ix2 (⟨s'.val, by omega⟩ : Fin 20) r))
    (fun r => w_in (ix2 (⟨18, by omega⟩ : Fin 20) r)) (fun r => w_in (ix2 (⟨19, by omega⟩ : Fin 20) r))
    (fun r => w_b (ix1 r)) (fun s' r => w_out (ix2 s' r)) s

/-- The whole result array as one function of the argument arrays. -/
def du (u : (⟨2, ![1048576, 18]⟩ : Shape).Idx → EReal) (T : (⟨1, ![1048576]⟩ : Shape).Idx → EReal)
    (w_in : (⟨2, ![20, 36]⟩ : Shape).Idx → EReal) (w_b : (⟨1, ![36]⟩ : Shape).Idx → EReal)
    (w_out : (⟨2, ![18, 36]⟩ : Shape).Idx → EReal) : (⟨2, ![1048576, 18]⟩ : Shape).Idx → EReal :=
  fun i => duAt u T w_in w_b w_out ⟨(i 0).val, (i 0).isLt⟩ ⟨(i 1).val, (i 1).isLt⟩

theorem du_ix2 (u : (⟨2, ![1048576, 18]⟩ : Shape).Idx → EReal) (T : (⟨1, ![1048576]⟩ : Shape).Idx → EReal)
    (w_in : (⟨2, ![20, 36]⟩ : Shape).Idx → EReal) (w_b : (⟨1, ![36]⟩ : Shape).Idx → EReal)
    (w_out : (⟨2, ![18, 36]⟩ : Shape).Idx → EReal) (b : Fin 1048576) (s : Fin 18) :
    du u T w_in w_b w_out (ix2 b s) = duAt u T w_in w_b w_out b s := rfl

/-- A sum over twenty indices is the sum over the first eighteen plus the nineteenth and the twentieth term: in any
    additive commutative monoid, so on the extended reals with no finiteness assumption. -/
theorem sum_twenty {M : Type*} [AddCommMonoid M] (f : Fin 20 → M) :
    ∑ k : Fin 20, f k = (∑ s : Fin 18, f ⟨s.val, by omega⟩) + f ⟨18, by omega⟩ + f ⟨19, by omega⟩ := by
  rw [Fin.sum_univ_castSucc, Fin.sum_univ_castSucc]
  rfl

end Cert.Crnn

end
-- ==== Proof.BlockValue.lean ====
/-
  What the kernel's body computes for one block of 8192 states, read at one entry.

  The body transposes the block of concentrations so that states run along the second axis, clamps and takes
  logarithms, multiplies the 18×36 weights (contracting the species axis of both operands) into an accumulator of
  zeros, adds the two temperature terms — a column of 36 weights times a row of 8192 values, each broadcast to
  36×8192 — and the bias column, clamps, exponentiates, multiplies the 18×36 output weights by the 36×8192 rates,
  transposes back and clamps.  Read at state `p` of the block and species `s` this is `rowOut` of row `p` of the
  block's operands: a transpose swaps the two coordinates, a column broadcast forgets the second coordinate, a row
  broadcast forgets the first, and each matrix product into zeros is the plain sum over its one contracted axis.
-/
import proofs.«101021_j10943576670318_2_alg».proof.Proof.Gen.KernelIdeal.Skeleton
import proofs.«101021_j10943576670318_2_alg».proof.Proof.RateLaw
import Idealize.ShloMosaic.Lib.Pipeline.Value
import Idealize.ShloMosaic.Lib.ValueIdx
import Idealize.ShloMosaic.Lib.ValueLayout
import Idealize.ShloMosaic.PureOps.Ideal.Laws

noncomputable section

namespace Cert.Crnn.Block

open Cert.KernelIdeal Cert.KernelIdeal.Gen Idealize.ShloMosaic Idealize.ShloMosaic.ValueIdx

/-- A column `[a, 1]` broadcast to `[a, b]` reads, at `(p, c)`, the column at `(p, 0)`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products read at an index

For each operand of each product: the contracted axis reads the contraction index, the other axis reads the result
index's coordinate that the operand contributes. -/

theorem logProduct_lhs0 (i : S36x8192.Idx) (q : dot_S18x36_S18x8192_S36x8192_0_0_1_1_n_n.contr.Idx) :
    (dot_S18x36_S18x8192_S36x8192_0_0_1_1_n_n.lhsIdx i q 0).val = (q ⟨0, by decide⟩).val :=
  dot_S18x36_S18x8192_S36x8192_0_0_1_1_n_n.lhsIdx_val_of_single rfl i q
theorem logProduct_lhs1 (i : S36x8192.Idx) (q : dot_S18x36_S18x8192_S36x8192_0_0_1_1_n_n.contr.Idx) :
    (dot_S18x36_S18x8192_S36x8192_0_0_1_1_n_n.lhsIdx i q 1).val = (i 0).val := by
  unfold DotDims.lhsIdx
  rw [dif_neg (show ¬(1 : Fin S18x36.rank) ∈ dot_S18x36_S18x8192_S36x8192_0_0_1_1_n_n.lhsBatch by decide),
    dif_pos (show (1 : Fin S18x36.rank) ∈ dot_S18x36_S18x8192_S36x8192_0_0_1_1_n_n.lhsNonContracting by decide)]
  rfl
theorem logProduct_rhs0 (i : S36x8192.Idx) (q : dot_S18x36_S18x8192_S36x8192_0_0_1_1_n_n.contr.Idx) :
    (dot_S18x36_S18x8192_S36x8192_0_0_1_1_n_n.rhsIdx i q 0).val = (q ⟨0, by decide⟩).val :=
  dot_S18x36_S18x8192_S36x8192_0_0_1_1_n_n.rhsIdx_val_of_single rfl i q
theorem logProduct_rhs1 (i : S36x8192.Idx) (q : dot_S18x36_S18x8192_S36x8192_0_0_1_1_n_n.contr.Idx) :
    (dot_S18x36_S18x8192_S36x8192_0_0_1_1_n_n.rhsIdx i q 1).val = (i 1).val := by
  unfold DotDims.rhsIdx
  rw [dif_neg (show ¬(1 : Fin S18x8192.rank) ∈ dot_S18x36_S18x8192_S36x8192_0_0_1_1_n_n.rhsBatch by decide),
    dif_pos (show (1 : Fin S18x8192.rank) ∈ dot_S18x36_S18x8192_S36x8192_0_0_1_1_n_n.rhsNonContracting by decide)]
  rfl

/-- The product of the logarithm weights `l` (species × reaction) and the logarithms `g` (species × state), contracting
    the species axis of both, accumulated into zeros: at (reaction `r`, state `p`) the sum over the species. -/
theorem logProduct_apply (l : FVec Ideal S18x36 .f32) (g : FVec Ideal S18x8192 .f32) (r : Fin 36) (p : Fin 8192) :
    matmul dot_S18x36_S18x8192_S36x8192_0_0_1_1_n_n (some .fp32) l g (constant (F := Ideal) S36x8192 .f32 0x00000000#32) (ix2 r p)
      = ∑ k : Fin 18, l (ix2 k r) * g (ix2 k p) := by
  simp only [matmul]
  rw [Ideal.matmul_constant_zero_apply, ← Equiv.sum_comp (contrEquiv1 dot_S18x36_S18x8192_S36x8192_0_0_1_1_n_n 18 rfl rfl).symm]
  refine Finset.sum_congr rfl fun k _ => ?_
  have hk := contrEquiv1_symm_val dot_S18x36_S18x8192_S36x8192_0_0_1_1_n_n 18 rfl rfl k
  have el : dot_S18x36_S18x8192_S36x8192_0_0_1_1_n_n.lhsIdx (ix2 r p) ((contrEquiv1 dot_S18x36_S18x8192_S36x8192_0_0_1_1_n_n 18 rfl rfl).symm k) = ix2 k r := funext fun a => Fin.ext (by
    match a with
    | ⟨0, _⟩ => exact (logProduct_lhs0 _ _).trans hk
    | ⟨1, _⟩ => exact logProduct_lhs1 _ _)
  have er : dot_S18x36_S18x8192_S36x8192_0_0_1_1_n_n.rhsIdx (ix2 r p) ((contrEquiv1 dot_S18x36_S18x8192_S36x8192_0_0_1_1_n_n 18 rfl rfl).symm k) = ix2 k p := funext fun a => Fin.ext (by
    match a with
    | ⟨0, _⟩ => exact (logProduct_rhs0 _ _).trans hk
    | ⟨1, _⟩ => exact logProduct_rhs1 _ _)
  rw [el, er]

theorem rateProduct_lhs0 (i : S18x8192.Idx) (q : dot_S18x36_S36x8192_S18x8192_1_0_0_1_n_n.contr.Idx) :
    (dot_S18x36_S36x8192_S18x8192_1_0_0_1_n_n.lhsIdx i q 0).val = (i 0).val := by
  unfold DotDims.lhsIdx
  rw [dif_neg (show ¬(0 : Fin S18x36.rank) ∈ dot_S18x36_S36x8192_S18x8192_1_0_0_1_n_n.lhsBatch by decide),
    dif_pos (show (0 : Fin S18x36.rank) ∈ dot_S18x36_S36x8192_S18x8192_1_0_0_1_n_n.lhsNonContracting by decide)]
  rfl
theorem rateProduct_lhs1 (i : S18x8192.Idx) (q : dot_S18x36_S36x8192_S18x8192_1_0_0_1_n_n.contr.Idx) :
    (dot_S18x36_S36x8192_S18x8192_1_0_0_1_n_n.lhsIdx i q 1).val = (q ⟨0, by decide⟩).val :=
  dot_S18x36_S36x8192_S18x8192_1_0_0_1_n_n.lhsIdx_val_of_single rfl i q
theorem rateProduct_rhs0 (i : S18x8192.Idx) (q : dot_S18x36_S36x8192_S18x8192_1_0_0_1_n_n.contr.Idx) :
    (dot_S18x36_S36x8192_S18x8192_1_0_0_1_n_n.rhsIdx i q 0).val = (q ⟨0, by decide⟩).val :=
  dot_S18x36_S36x8192_S18x8192_1_0_0_1_n_n.rhsIdx_val_of_single rfl i q
theorem rateProduct_rhs1 (i : S18x8192.Idx) (q : dot_S18x36_S36x8192_S18x8192_1_0_0_1_n_n.contr.Idx) :
    (dot_S18x36_S36x8192_S18x8192_1_0_0_1_n_n.rhsIdx i q 1).val = (i 1).val := by
  unfold DotDims.rhsIdx
  rw [dif_neg (show ¬(1 : Fin S36x8192.rank) ∈ dot_S18x36_S36x8192_S18x8192_1_0_0_1_n_n.rhsBatch by decide),
    dif_pos (show (1 : Fin S36x8192.rank) ∈ dot_S18x36_S36x8192_S18x8192_1_0_0_1_n_n.rhsNonContracting by decide)]
  rfl

/-- The product of the output weights `l` (species × reaction) and the rates `g` (reaction × state), accumulated into
    zeros: at (species `s`, state `p`) the sum over the reactions. -/
theorem rateProduct_apply (l : FVec Ideal S18x36 .bf16) (g : FVec Ideal S36x8192 .bf16) (s : Fin 18) (p : Fin 8192) :
    matmul dot_S18x36_S36x8192_S18x8192_1_0_0_1_n_n none l g (constant (F := Ideal) S18x8192 .f32 0x00000000#32) (ix2 s p)
      = ∑ k : Fin 36, l (ix2 s k) * g (ix2 k p) := by
  simp only [matmul]
  rw [Ideal.matmul_constant_zero_apply, ← Equiv.sum_comp (contrEquiv1 dot_S18x36_S36x8192_S18x8192_1_0_0_1_n_n 36 rfl rfl).symm]
  refine Finset.sum_congr rfl fun k _ => ?_
  have hk := contrEquiv1_symm_val dot_S18x36_S36x8192_S18x8192_1_0_0_1_n_n 36 rfl rfl k
  have el : dot_S18x36_S36x8192_S18x8192_1_0_0_1_n_n.lhsIdx (ix2 s p) ((contrEquiv1 dot_S18x36_S36x8192_S18x8192_1_0_0_1_n_n 36 rfl rfl).symm k) = ix2 s k := funext fun a => Fin.ext (by
    match a with
    | ⟨0, _⟩ => exact rateProduct_lhs0 _ _
    | ⟨1, _⟩ => exact (rateProduct_lhs1 _ _).trans hk)
  have er : dot_S18x36_S36x8192_S18x8192_1_0_0_1_n_n.rhsIdx (ix2 s p) ((contrEquiv1 dot_S18x36_S36x8192_S18x8192_1_0_0_1_n_n 36 rfl rfl).symm k) = ix2 k p := funext fun a => Fin.ext (by
    match a with
    | ⟨0, _⟩ => exact (rateProduct_rhs0 _ _).trans hk
    | ⟨1, _⟩ => exact rateProduct_rhs1 _ _)
  rw [el, er]

/-- The exponential and the logarithm of an array read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The block of concentrations with states running along the second axis: at (species `k`, state `p`) the block at (p, k). -/
theorem statesAlong_apply (x0 : Vec Ideal S8192x18 .f32) (k : Fin 18) (p : Fin 8192) :
    (transpose S18x8192 [1, 0] x0 transposes_S8192x18_p1_0_S18x8192 : FVec Ideal S18x8192 .f32) (ix2 k p) = x0 (ix2 p k) :=
  transpose_ix2_apply x0 transposes_S8192x18_p1_0_S18x8192 k p

/-- The species × state array of outputs turned back to state × species: at (state `p`, species `s`) the array at (s, p). -/
theorem speciesAlong_apply (y : FVec Ideal S18x8192 .f32) (p : Fin 8192) (s : Fin 18) :
    transpose S8192x18 [1, 0] y transposes_S18x8192_p1_0_S8192x18 (ix2 p s) = y (ix2 s p) :=
  transpose_ix2_apply y transposes_S18x8192_p1_0_S8192x18 p s

/-- The rates of the block: at (reaction `r`, state `p`) the rate of reaction `r` for row `p` of the block's operands. -/
theorem rates_apply (x0 : Vec Ideal S8192x18 .f32) (x1 : Vec Ideal S8192 .f32) (x2 : Vec Ideal S18x36 .f32)
    (x3 x4 x5 : Vec Ideal S36x1 .f32) (r : Fin 36) (p : Fin 8192) :
    k0_pay2 (F := Ideal) x0 x1 x2 x3 x4 x5 (ix2 r p)
      = rate (fun s => x0 (ix2 p s)) (x1 (ix1 p)) (fun s r => x2 (ix2 s r)) (fun r => x3 (ix2 r (0 : Fin 1)))
          (fun r => x4 (ix2 r (0 : Fin 1))) (fun r => x5 (ix2 r (0 : Fin 1))) r := by
  unfold k0_pay2 rate logConc invRT
  simp only [truncf_apply, exp_apply, log_apply, minimumf_apply, maximumf_apply, broadcast_apply, addf_apply, mulf_apply,
    divf_apply, logProduct_apply, broadcastTo_column_apply, broadcastTo_1b_ab_apply, shapeCast_self, shapeCast_a_1a_apply,
    shapeCast_a_1a_apply]
  refine congrArg Ideal.exp (congrArg (min _) (congrArg (max _) ?_))
  refine congrArg (· + _) (congrArg (· + _) (congrArg (· + _) (Finset.sum_congr rfl fun k _ => ?_)))
  rw [statesAlong_apply]
  rfl

/-- The block's result: at (state `p`, species `s`) the output of species `s` for row `p` of the block's operands. -/
theorem block_apply (x0 : Vec Ideal S8192x18 .f32) (x1 : Vec Ideal S8192 .f32) (x2 : Vec Ideal S18x36 .f32)
    (x3 x4 x5 : Vec Ideal S36x1 .f32) (x6 : Vec Ideal S18x36 .bf16) (p : Fin 8192) (s : Fin 18) :
    k0_pay1 (F := Ideal) (k0_pay2 (F := Ideal) x0 x1 x2 x3 x4 x5) x6 (ix2 p s)
      = rowOut (fun s => x0 (ix2 p s)) (x1 (ix1 p)) (fun s r => x2 (ix2 s r)) (fun r => x3 (ix2 r (0 : Fin 1)))
          (fun r => x4 (ix2 r (0 : Fin 1))) (fun r => x5 (ix2 r (0 : Fin 1))) (fun s r => x6 (ix2 s r)) s := by
  unfold k0_pay1 rowOut
  simp only [minimumf_apply, maximumf_apply, broadcast_apply]
  rw [speciesAlong_apply]
  rw [rateProduct_apply]
  simp only [shapeCast_self, rates_apply]
  rfl

end Cert.Crnn.Block

end
-- ==== Proof.WeightArrays.lean ====
/-
  The five small arrays the region is launched on, as functions of the arguments.

  Before the region the program cuts the 20×36 weight array into its first 18 rows (the logarithm weights), row 18
  and row 19 (each reshaped to a vector of 36 and stood up as a 36×1 column), stands the 36 biases up as a 36×1
  column, and changes the float format of the 18×36 output weights, which on the extended reals changes nothing.
  Read at an index: the logarithm weights at (s, r) are `w_in` at (s, r); the two columns at (r, 0) are `w_in` at
  (18, r) and at (19, r); the bias column at (r, 0) is `w_b` at r; the output weights at (s, r) are `w_out` at (s, r).
-/
import proofs.«101021_j10943576670318_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.Crnn.Weights

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- A vector `[a]` stood up as a column `[a, 1]` reads, at `(r, 0)`, the vector at `r`. -/
theorem column_apply {α : Type} {a : ℕ} (v : (⟨1, ![a]⟩ : Shape).Idx → α)
    (h : (⟨1, ![a]⟩ : Shape).BroadcastsInDim ⟨2, ![a, 1]⟩ ![0]) (r : Fin a) (z : Fin 1) :
    broadcastInDim ⟨2, ![a, 1]⟩ ![0] h v (ix2 r z) = v (ix1 r) := by
  refine broadcastInDim_apply ![0] h v (ix2 r z) (ix1 r) fun ax => ?_
  match ax with
  | ⟨0, _⟩ =>
    show r.val = if a = 1 then 0 else r.val
    split
    · have := r.isLt; omega
    · rfl

/-- The logarithm weights the region finds: rows 0–17 of `w_in`. -/
theorem logWeights_apply (c : Dev nD) (s : Fin 18) (r : Fin 36) :
    (V m c main_v0 : S18x36.Idx → EReal) (ix2 s r)
      = (m ((c : Thread nD τ).loc main_arg2) : S20x36.Idx → EReal) (ix2 (⟨s.val, by omega⟩ : Fin 20) r) := by
  have e : (V m c main_v0 : S18x36.Idx → EReal)
      = extractStridedSlice S18x36 ![0, 0] (m ((c : Thread nD τ).loc main_arg2) : S20x36.Idx → EReal) slices_S20x36_S18x36_0_0 := by
    dsimp only [V, hostOps0]; after_results
  rw [e]
  exact slice2_axis0_apply 0 _ _ s r _ (Nat.zero_add _).symm

/-- The column of `-1/(R·T)` weights the region finds: row 18 of `w_in`. -/
theorem invRTWeights_apply (c : Dev nD) (r : Fin 36) (z : Fin 1) :
    (V m c main_v3 : S36x1.Idx → EReal) (ix2 r z)
      = (m ((c : Thread nD τ).loc main_arg2) : S20x36.Idx → EReal) (ix2 (⟨18, by omega⟩ : Fin 20) r) := by
  have e : (V m c main_v3 : S36x1.Idx → EReal)
      = broadcastInDim S36x1 ![0] bcast_S36_S36x1_0 (shapeCast S36 (extractStridedSlice S1x36 ![18, 0]
          (m ((c : Thread nD τ).loc main_arg2) : S20x36.Idx → EReal) slices_S20x36_S1x36_18_0) shapeCasts_S1x36_S36) := by
    dsimp only [V, hostOps0]; after_results; rfl
  rw [e, column_apply, shapeCast_1a_a_apply]
  exact slice2_axis0_apply 18 _ _ (0 : Fin 1) r _ rfl

/-- The column of `log T` weights the region finds: row 19 of `w_in`. -/
theorem logTWeights_apply (c : Dev nD) (r : Fin 36) (z : Fin 1) :
    (V m c main_v6 : S36x1.Idx → EReal) (ix2 r z)
      = (m ((c : Thread nD τ).loc main_arg2) : S20x36.Idx → EReal) (ix2 (⟨19, by omega⟩ : Fin 20) r) := by
  have e : (V m c main_v6 : S36x1.Idx → EReal)
      = broadcastInDim S36x1 ![0] bcast_S36_S36x1_0 (shapeCast S36 (extractStridedSlice S1x36 ![19, 0]
          (m ((c : Thread nD τ).loc main_arg2) : S20x36.Idx → EReal) slices_S20x36_S1x36_19_0) shapeCasts_S1x36_S36) := by
    dsimp only [V, hostOps0]; after_results; rfl
  rw [e, column_apply, shapeCast_1a_a_apply]
  exact slice2_axis0_apply 19 _ _ (0 : Fin 1) r _ rfl

/-- The bias column the region finds: `w_b`. -/
theorem bias_apply (c : Dev nD) (r : Fin 36) (z : Fin 1) :
    (V m c main_v7 : S36x1.Idx → EReal) (ix2 r z) = (m ((c : Thread nD τ).loc main_arg3) : S36.Idx → EReal) (ix1 r) := by
  have e : (V m c main_v7 : S36x1.Idx → EReal)
      = broadcastInDim S36x1 ![0] bcast_S36_S36x1_0 (m ((c : Thread nD τ).loc main_arg3) : S36.Idx → EReal) := by
    dsimp only [V, hostOps0]; after_results
  rw [e, column_apply]

/-- The output weights the region finds: `w_out`, the change of float format being the identity on the extended reals. -/
theorem outWeights_eq (c : Dev nD) :
    (V m c main_v8 : S18x36.Idx → EReal) = (m ((c : Thread nD τ).loc main_arg4) : S18x36.Idx → EReal) := by
  dsimp only [V, hostOps0]; after_results; rfl

end Cert.Crnn.Weights

end
-- ==== Proof.KernelValue.lean ====
/-
  The kernel's result array after the run is `du` of its arguments.

  Grid point `t` (of 128) reads rows `8192·t … 8192·t + 8191` of the concentrations and of the temperatures, reads
  the five small weight arrays whole, and writes back rows `8192·t … 8192·t + 8191` of the result.  What it writes at
  row `p` of its block and species `s` is `rowOut` of row `p` of its blocks, which is `du` at state `8192·t + p`:
  the point's block of a batched array at `(p, s)` is the array at `(8192·t + p, s)`, and a whole-array block is the
  array itself.  Every state `b` lies in the block of point `b / 8192`, so the blocks cover the result array and it
  ends holding `du` everywhere.
-/
import proofs.«101021_j10943576670318_2_alg».proof.Proof.Gen.KernelIdeal.Value
import proofs.«101021_j10943576670318_2_alg».proof.Proof.BlockValue
import proofs.«101021_j10943576670318_2_alg».proof.Proof.WeightArrays
import proofs.«101021_j10943576670318_2_alg».proof.Proof.RateLaw
import Idealize.ShloMosaic.Lib.Pipeline.Value
import Idealize.ShloMosaic.Lib.ValueIdx

noncomputable section

namespace Cert.Crnn.Kernel

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The result the kernel is to leave on core `c`: `du` of the five arguments as launched. -/
abbrev result (c : Dev nD) : S1048576x18.Idx → EReal :=
  du (m ((c : Thread nD τ).loc main_arg0)) (m ((c : Thread nD τ).loc main_arg1)) (m ((c : Thread nD τ).loc main_arg2))
    (m ((c : Thread nD τ).loc main_arg3)) (m ((c : Thread nD τ).loc main_arg4))

theorem zero2 : (![0, 0] : Fin 2 → Nat) = fun _ => 0 := funext fun a => by fin_cases a <;> rfl
theorem zero1 : (![0] : Fin 1 → Nat) = fun _ => 0 := funext fun a => by fin_cases a <;> rfl

/-- The block indices, decided over the 128 points: the batched windows (concentrations, temperatures, result) are at
    block `t` along the state axis, and every weight window is at block 0. -/
theorem blockIndices : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## Each window's block at a point, read at an entry -/

/-- Row `p` of point `t`'s block of concentrations is state `8192·t + p`. -/
theorem conc_read (c : Dev nD) (t : Fin cfg0.N) (p : Fin 8192) (s : Fin 18) (b : Fin 1048576) (hb : b.val = t.val * 8192 + p.val) :
    iblk m c 0 t (ix2 p s) = (m ((c : Thread nD τ).loc main_arg0) : S1048576x18.Idx → EReal) (ix2 b s) := by
  show V m c main_arg0 (((cfg0.win 0).blk t).view.emb (ix2 p s)) = _
  rw [V_main_arg0]
  have e : ((cfg0.win 0).blk t).view.emb (ix2 p s) = ix2 b s := by
    obtain ⟨_, _, e0, e1, _⟩ := blockIndices t
    funext a; apply Fin.ext
    match a with
    | ⟨0, _⟩ => show win0_0.index t (0 : Fin 2) * 8192 + 1 * p.val = b.val; omega
    | ⟨1, _⟩ => show win0_0.index t (1 : Fin 2) * 18 + 1 * s.val = s.val; omega
  rw [e]

/-- Entry `p` of point `t`'s block of temperatures is state `8192·t + p`. -/
theorem temp_read (c : Dev nD) (t : Fin cfg0.N) (p : Fin 8192) (b : Fin 1048576) (hb : b.val = t.val * 8192 + p.val) :
    iblk m c 1 t (ix1 p) = (m ((c : Thread nD τ).loc main_arg1) : S1048576.Idx → EReal) (ix1 b) := by
  show V m c main_arg1 (((cfg0.win 1).blk t).view.emb (ix1 p)) = _
  rw [V_main_arg1]
  have e : ((cfg0.win 1).blk t).view.emb (ix1 p) = ix1 b := by
    obtain ⟨_, _, _, _, e0, _⟩ := blockIndices t
    funext a; apply Fin.ext
    match a with
    | ⟨0, _⟩ => show win0_1.index t (0 : Fin 1) * 8192 + 1 * p.val = b.val; omega
  rw [e]

/-- The logarithm-weight block is rows 0–17 of `w_in`. -/
theorem logWeights_read (c : Dev nD) (t : Fin cfg0.N) (s : Fin 18) (r : Fin 36) :
    iblk m c 2 t (ix2 s r)
      = (m ((c : Thread nD τ).loc main_arg2) : S20x36.Idx → EReal) (ix2 (⟨s.val, by omega⟩ : Fin 20) r) := by
  show V m c main_v0 (((cfg0.win 2).blk t).view.emb (ix2 s r)) = _
  have e : ((cfg0.win 2).blk t).view.emb (ix2 s r) = ix2 s r := by
    obtain ⟨_, _, _, _, _, e0, e1, _⟩ := blockIndices t
    funext a; apply Fin.ext
    match a with
    | ⟨0, _⟩ => show win0_2.index t (0 : Fin 2) * 18 + 1 * s.val = s.val; omega
    | ⟨1, _⟩ => show win0_2.index t (1 : Fin 2) * 36 + 1 * r.val = r.val; omega
  rw [e]
  exact Weights.logWeights_apply m c s r

/-- The `-1/(R·T)`-weight block is row 18 of `w_in`. -/
theorem invRTWeights_read (c : Dev nD) (t : Fin cfg0.N) (r : Fin 36) :
    iblk m c 3 t (ix2 r (0 : Fin 1))
      = (m ((c : Thread nD τ).loc main_arg2) : S20x36.Idx → EReal) (ix2 (⟨18, by omega⟩ : Fin 20) r) := by
  show V m c main_v3 (((cfg0.win 3).blk t).view.emb (ix2 r (0 : Fin 1))) = _
  have e : ((cfg0.win 3).blk t).view.emb (ix2 r (0 : Fin 1)) = ix2 r (0 : Fin 1) := by
    obtain ⟨_, _, _, _, _, _, _, e0, e1, _⟩ := blockIndices t
    funext a; apply Fin.ext
    match a with
    | ⟨0, _⟩ => show win0_3.index t (0 : Fin 2) * 36 + 1 * r.val = r.val; omega
    | ⟨1, _⟩ => show win0_3.index t (1 : Fin 2) * 1 + 1 * 0 = 0; omega
  rw [e]
  exact Weights.invRTWeights_apply m c r 0

/-- The `log T`-weight block is row 19 of `w_in`. -/
theorem logTWeights_read (c : Dev nD) (t : Fin cfg0.N) (r : Fin 36) :
    iblk m c 4 t (ix2 r (0 : Fin 1))
      = (m ((c : Thread nD τ).loc main_arg2) : S20x36.Idx → EReal) (ix2 (⟨19, by omega⟩ : Fin 20) r) := by
  show V m c main_v6 (((cfg0.win 4).blk t).view.emb (ix2 r (0 : Fin 1))) = _
  have e : ((cfg0.win 4).blk t).view.emb (ix2 r (0 : Fin 1)) = ix2 r (0 : Fin 1) := by
    obtain ⟨_, _, _, _, _, _, _, _, _, e0, e1, _⟩ := blockIndices t
    funext a; apply Fin.ext
    match a with
    | ⟨0, _⟩ => show win0_4.index t (0 : Fin 2) * 36 + 1 * r.val = r.val; omega
    | ⟨1, _⟩ => show win0_4.index t (1 : Fin 2) * 1 + 1 * 0 = 0; omega
  rw [e]
  exact Weights.logTWeights_apply m c r 0

/-- The bias block is `w_b`. -/
theorem bias_read (c : Dev nD) (t : Fin cfg0.N) (r : Fin 36) :
    iblk m c 5 t (ix2 r (0 : Fin 1)) = (m ((c : Thread nD τ).loc main_arg3) : S36.Idx → EReal) (ix1 r) := by
  show V m c main_v7 (((cfg0.win 5).blk t).view.emb (ix2 r (0 : Fin 1))) = _
  have e : ((cfg0.win 5).blk t).view.emb (ix2 r (0 : Fin 1)) = ix2 r (0 : Fin 1) := by
    obtain ⟨_, _, _, _, _, _, _, _, _, _, _, e0, e1, _⟩ := blockIndices t
    funext a; apply Fin.ext
    match a with
    | ⟨0, _⟩ => show win0_5.index t (0 : Fin 2) * 36 + 1 * r.val = r.val; omega
    | ⟨1, _⟩ => show win0_5.index t (1 : Fin 2) * 1 + 1 * 0 = 0; omega
  rw [e]
  exact Weights.bias_apply m c r 0

/-- The output-weight block is `w_out`. -/
theorem outWeights_read (c : Dev nD) (t : Fin cfg0.N) (s : Fin 18) (r : Fin 36) :
    iblk m c 6 t (ix2 s r) = (m ((c : Thread nD τ).loc main_arg4) : S18x36.Idx → EReal) (ix2 s r) := by
  show V m c main_v8 (((cfg0.win 6).blk t).view.emb (ix2 s r)) = _
  have e : ((cfg0.win 6).blk t).view.emb (ix2 s r) = ix2 s r := by
    obtain ⟨_, _, _, _, _, _, _, _, _, _, _, _, _, e0, e1⟩ := blockIndices t
    funext a; apply Fin.ext
    match a with
    | ⟨0, _⟩ => show win0_6.index t (0 : Fin 2) * 18 + 1 * s.val = s.val; omega
    | ⟨1, _⟩ => show win0_6.index t (1 : Fin 2) * 36 + 1 * r.val = r.val; omega
  rw [e]
  exact congrFun (Weights.outWeights_eq m c) (ix2 s r)

/-! ## What a point writes back, the cover, the array -/

/-- Point `t` writes back block `t` of `du` of the arguments. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zero2]
  simp only [View.ld_unit_zero (S := S8192x18) zero2, View.ld_unit_zero (S := S8192) zero1,
    View.ld_unit_zero (S := S18x36) zero2, View.ld_unit_zero (S := S36x1) zero2]
  funext y
  obtain ⟨p, s, rfl⟩ : ∃ (p : Fin 8192) (s : Fin 18), y = ix2 p s := ⟨y 0, y 1, eq_ix2 y⟩
  have hN : cfg0.N = 128 := N_0
  have hb : t.val * 8192 + p.val < 1048576 := by have := t.isLt; have := p.isLt; omega
  have e : ((cfg0.win 7).blk t).view.emb (ix2 p s) = ix2 (⟨t.val * 8192 + p.val, hb⟩ : Fin 1048576) s := by
    obtain ⟨e0, e1, _⟩ := blockIndices t
    funext a; apply Fin.ext
    match a with
    | ⟨0, _⟩ => show win0_7.index t (0 : Fin 2) * 8192 + 1 * p.val = t.val * 8192 + p.val; omega
    | ⟨1, _⟩ => show win0_7.index t (1 : Fin 2) * 18 + 1 * s.val = s.val; omega
  show k0_pay1 (F := Ideal) (k0_pay2 (F := Ideal) (iblk m c 0 t) (iblk m c 1 t) (iblk m c 2 t) (iblk m c 3 t) (iblk m c 4 t) (iblk m c 5 t))
      (iblk m c 6 t) (ix2 p s) = result m c (((cfg0.win 7).blk t).view.emb (ix2 p s))
  rw [e]
  refine (Block.block_apply (iblk m c 0 t) (iblk m c 1 t) (iblk m c 2 t) (iblk m c 3 t) (iblk m c 4 t) (iblk m c 5 t)
    (iblk m c 6 t) p s).trans ?_
  exact rowOut_congr (fun s' => conc_read m c t p s' _ rfl) (temp_read m c t p _ rfl) (fun s' r => logWeights_read m c t s' r)
    (fun r => invRTWeights_read m c t r) (fun r => logTWeights_read m c t r) (fun r => bias_read m c t r)
    (fun s' r => outWeights_read m c t s' r) s

/-- An index of the result array is in point `t`'s block iff each coordinate is in the block's range on its axis. -/
theorem mem_block (t : Fin cfg0.N) (i : S1048576x18.Idx) :
    i ∈ ((cfg0.win 7).blk t).view.set ↔ ∀ a : Fin 2, win0_7.index t a * S8192x18.size a ≤ (i a).val
      ∧ (i a).val < win0_7.index t a * S8192x18.size a + S8192x18.size a := by
  show i ∈ ((View.whole main_v9).slice (win0_7.rect t)).set ↔ _
  rw [View.set_slice_whole, Rect.mem_set_unit]
  exact Iff.rfl

/-- State `b` lies in the block of point `b / 8192`. -/
theorem covered (i : S1048576x18.Idx) :
    ∃ t : Fin cfg0.N, (cfg0.win 7).flush t = true ∧ i ∈ ((cfg0.win 7).blk t).view.set := by
  have hi0 : (i 0).val < 1048576 := (i 0).isLt
  have hi1 : (i 1).val < 18 := (i 1).isLt
  have hN : cfg0.N = 128 := N_0
  obtain ⟨t, ht⟩ : ∃ t : Fin cfg0.N, t.val = (i 0).val / 8192 :=
    ⟨⟨(i 0).val / 8192, (show (i 0).val / 8192 < 128 by omega).trans_eq hN.symm⟩, rfl⟩
  refine ⟨t, flush0_7 t, ?_⟩
  rw [mem_block]
  obtain ⟨e0, e1, _⟩ := blockIndices t
  intro a
  match a with
  | ⟨0, _⟩ =>
    show win0_7.index t (0 : Fin 2) * 8192 ≤ (i 0).val ∧ (i 0).val < win0_7.index t (0 : Fin 2) * 8192 + 8192
    omega
  | ⟨1, _⟩ =>
    show win0_7.index t (1 : Fin 2) * 18 ≤ (i 1).val ∧ (i 1).val < win0_7.index t (1 : Fin 2) * 18 + 18
    omega

/-- The result array after the run is `du` of the arguments. -/
theorem final (c : Dev nD) : (dats m 0 c).arrAt 7 cfg0.N = result m c :=
  (dats m 0 c).arrAt_eq_of_cover 7 (result m c) (fun t _ => flushed_eq m c t) covered

/-- The kernel's run: every weakly fair execution terminates with the result array at `du` of the arguments and the
    arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Crnn.Kernel

end
-- ==== Proof.ReferenceValue.lean ====
/-
  The reference program's result is `du` of its arguments.

  The reference lists, for each state, the 18 logarithms of the clamped concentrations followed by `-1/(R·T)` and
  `log T` — twenty entries joined along the second axis —, multiplies the list by the 20×36 weights, adds the
  biases, clamps, exponentiates, multiplies by the transposed output weights and clamps.  Entry `k` of the joined
  list comes from the piece whose span holds `k`: the logarithms for `k < 18`, then the two one-entry pieces.  The
  sum over the twenty entries is the sum over the first eighteen plus the last two (`sum_twenty`), and each product
  is turned around by commutativity; nothing here needs a finite value.
-/
import proofs.«101021_j10943576670318_2_alg».proof.Proof.Gen.ReferenceIdeal.Read
import proofs.«101021_j10943576670318_2_alg».proof.Proof.RateLaw
import Idealize.ShloMosaic.Lib.Pipeline.Value
import Idealize.ShloMosaic.Lib.ValueIdx
import Idealize.ShloMosaic.PureOps.Ideal.Laws

noncomputable section

namespace Cert.Crnn.Reference

open Cert.ReferenceIdeal Cert.ReferenceIdeal.Gen Cert.ReferenceIdeal.Read Idealize.ShloMosaic Idealize.ShloMosaic.ValueIdx

variable (x0 : (⟨S1048576x18, .f32⟩ : BufTy).Contents (Elt Ideal)) (x1 : (⟨S1048576, .f32⟩ : BufTy).Contents (Elt Ideal))
  (x2 : (⟨S20x36, .f32⟩ : BufTy).Contents (Elt Ideal)) (x3 : (⟨S36, .f32⟩ : BufTy).Contents (Elt Ideal))
  (x4 : (⟨S18x36, .f32⟩ : BufTy).Contents (Elt Ideal))

/-- The logarithm of the clamped concentration of state `b`, species `s`. -/
theorem logs_apply (b : Fin 1048576) (s : Fin 18) :
    val_main_v1 (F := Ideal) x0 (ix2 b s) = logConc (x0 (ix2 b s)) := by
  rw [val_main_v1_apply, val_main_v0_apply, val_main_call0_v4_apply, val_main_call0_v3_apply, val_main_cst_0_apply,
    val_main_call0_v2_apply, val_main_call0_v1_apply, val_main_call0_v0_apply, val_main_cst_apply]
  rfl

/-- The one-entry piece `-1/(R·T)` of state `b`. -/
theorem invRT_apply (b : Fin 1048576) (z : Fin 1) :
    val_main_v6 (F := Ideal) x1 (ix2 b z) = invRT (x1 (ix1 b)) := by
  have h : idx_main_v6 (ix2 b z) = ix1 b := funext fun a => Fin.ext (by match a with | ⟨0, _⟩ => rfl)
  rw [val_main_v6_apply, h, val_main_v5_apply, val_main_v4_apply, val_main_cst_2_apply, val_main_v3_apply,
    val_main_v2_apply, val_main_cst_1_apply]
  rfl

/-- The one-entry piece `log T` of state `b`. -/
theorem logT_apply (b : Fin 1048576) (z : Fin 1) :
    val_main_v8 (F := Ideal) x1 (ix2 b z) = Ideal.log (x1 (ix1 b)) := by
  have h : idx_main_v8 (ix2 b z) = ix1 b := funext fun a => Fin.ext (by match a with | ⟨0, _⟩ => rfl)
  rw [val_main_v8_apply, h, val_main_v7_apply]
  rfl

/-- Entries 0–17 of state `b`'s joined list are its logarithms. -/
theorem joined_species (b : Fin 1048576) (s : Fin 18) :
    val_main_v9 (F := Ideal) x0 x1 (ix2 b (⟨s.val, by omega⟩ : Fin 20)) = logConc (x0 (ix2 b s)) := by
  unfold val_main_v9
  refine (concatenate_apply_piece (1 : Fin S1048576x20.rank) _ _ (ix2 b (⟨s.val, by omega⟩ : Fin 20)) 0 ?_
    S1048576x18 (val_main_v1 (F := Ideal) x0) ?_ rfl 0 ?_ (ix2 b s) ?_ ?_).trans (logs_apply x0 b s)
  · show (0 : ℕ) < 3; omega
  · rfl
  · rfl
  · intro a ha
    match a with
    | ⟨0, _⟩ => rfl
    | ⟨1, _⟩ => exact absurd rfl ha
  · exact Nat.zero_add _

/-- Entry 18 is `-1/(R·T)`. -/
theorem joined_invRT (b : Fin 1048576) :
    val_main_v9 (F := Ideal) x0 x1 (ix2 b (⟨18, by omega⟩ : Fin 20)) = invRT (x1 (ix1 b)) := by
  unfold val_main_v9
  refine (concatenate_apply_piece (1 : Fin S1048576x20.rank) _ _ (ix2 b (⟨18, by omega⟩ : Fin 20)) 1 ?_
    S1048576x1 (val_main_v6 (F := Ideal) x1) ?_ rfl 18 ?_ (ix2 b (0 : Fin 1)) ?_ ?_).trans (invRT_apply x1 b 0)
  · show (1 : ℕ) < 3; omega
  · rfl
  · rfl
  · intro a ha
    match a with
    | ⟨0, _⟩ => rfl
    | ⟨1, _⟩ => exact absurd rfl ha
  · exact rfl

/-- Entry 19 is `log T`. -/
theorem joined_logT (b : Fin 1048576) :
    val_main_v9 (F := Ideal) x0 x1 (ix2 b (⟨19, by omega⟩ : Fin 20)) = Ideal.log (x1 (ix1 b)) := by
  unfold val_main_v9
  refine (concatenate_apply_piece (1 : Fin S1048576x20.rank) _ _ (ix2 b (⟨19, by omega⟩ : Fin 20)) 2 ?_
    S1048576x1 (val_main_v8 (F := Ideal) x1) ?_ rfl 19 ?_ (ix2 b (0 : Fin 1)) ?_ ?_).trans (logT_apply x1 b 0)
  · show (2 : ℕ) < 3; omega
  · rfl
  · rfl
  · intro a ha
    match a with
    | ⟨0, _⟩ => rfl
    | ⟨1, _⟩ => exact absurd rfl ha
  · exact rfl

/-- Reaction `r`'s exponent for state `b`, before clamping: the twenty-term product sum plus the bias, rearranged as
    eighteen logarithm terms and the two temperature terms. -/
theorem exponent_apply (b : Fin 1048576) (r : Fin 36) :
    val_main_v13 (F := Ideal) x0 x1 x2 x3 (ix2 b r)
      = (∑ s : Fin 18, x2 (ix2 (⟨s.val, by omega⟩ : Fin 20) r) * logConc (x0 (ix2 b s)))
        + x2 (ix2 (⟨18, by omega⟩ : Fin 20) r) * invRT (x1 (ix1 b))
        + x2 (ix2 (⟨19, by omega⟩ : Fin 20) r) * Ideal.log (x1 (ix1 b)) + x3 (ix1 r) := by
  have hl : ∀ k : Fin 20, lidx_main_v10 (ix2 b r) k = ix2 b k := fun k => funext fun a => Fin.ext (by
    match a with
    | ⟨0, _⟩ => rfl
    | ⟨1, _⟩ => rfl)
  have hr : ∀ k : Fin 20, ridx_main_v10 (ix2 b r) k = ix2 k r := fun k => funext fun a => Fin.ext (by
    match a with
    | ⟨0, _⟩ => rfl
    | ⟨1, _⟩ => rfl)
  have hb : idx_main_v11 (idx_main_v12 (ix2 b r)) = ix1 r := funext fun a => Fin.ext (by match a with | ⟨0, _⟩ => rfl)
  rw [val_main_v13_apply, val_main_v10_apply, val_main_v12_apply, val_main_v11_apply, hb, sum_twenty]
  simp only [hl, hr, joined_species, joined_invRT, joined_logT]
  rw [Finset.sum_congr rfl fun s _ => mul_comm (logConc (x0 (ix2 b s))) _, mul_comm (invRT _), mul_comm (Ideal.log _)]
  rfl

/-- Reaction `r`'s rate for state `b`. -/
theorem rates_apply (b : Fin 1048576) (r : Fin 36) :
    val_main_v15 (F := Ideal) x0 x1 x2 x3 (ix2 b r)
      = rate (fun s => x0 (ix2 b s)) (x1 (ix1 b)) (fun s r => x2 (ix2 (⟨s.val, by omega⟩ : Fin 20) r))
          (fun r => x2 (ix2 (⟨18, by omega⟩ : Fin 20) r)) (fun r => x2 (ix2 (⟨19, by omega⟩ : Fin 20) r))
          (fun r => x3 (ix1 r)) r := by
  rw [val_main_v15_apply, val_main_v14_apply, val_main_call1_v4_apply, val_main_call1_v3_apply, val_main_cst_4_apply,
    val_main_call1_v2_apply, val_main_call1_v1_apply, val_main_call1_v0_apply, val_main_cst_3_apply, exponent_apply]
  rfl

/-- The reference's result is `du` of its arguments. -/
theorem result_eq : val_main_v18 (F := Ideal) x0 x1 x2 x3 x4 = du x0 x1 x2 x3 x4 := by
  funext i
  obtain ⟨b, s, rfl⟩ : ∃ (b : Fin 1048576) (s : Fin 18), i = ix2 b s := ⟨i 0, i 1, eq_ix2 i⟩
  have hl : ∀ k : Fin 36, lidx_main_v17 (ix2 b s) k = ix2 b k := fun k => funext fun a => Fin.ext (by
    match a with
    | ⟨0, _⟩ => rfl
    | ⟨1, _⟩ => rfl)
  have hr : ∀ k : Fin 36, idx_main_v16 (ridx_main_v17 (ix2 b s) k) = ix2 s k := fun k => funext fun a => Fin.ext (by
    match a with
    | ⟨0, _⟩ => rfl
    | ⟨1, _⟩ => rfl)
  rw [du_ix2, val_main_v18_apply, val_main_call2_v4_apply, val_main_call2_v3_apply, val_main_cst_6_apply,
    val_main_call2_v2_apply, val_main_call2_v1_apply, val_main_call2_v0_apply, val_main_cst_5_apply, val_main_v17_apply]
  simp only [hl, val_main_v16_apply, hr, rates_apply]
  unfold duAt rowOut
  rw [Finset.sum_congr rfl fun k _ => mul_comm _ (x4 (ix2 s k))]
  rfl

end Cert.Crnn.Reference

end
-- ==== Proof.lean ====
/-
  The certificate of a batched reaction-network step: for each of 1048576 states (18 species concentrations and a
  temperature), clamp the concentrations and take logarithms; form each of 36 reaction exponents as a weighted sum of
  the 18 logarithms, of `-1/(R·T)` and of `log T`, plus a bias; clamp, exponentiate; and return, per species, the
  clamped weighted sum of the 36 rates.

  The kernel works on blocks of 8192 states with the states along the second axis, adds the 18 logarithm terms by a
  matrix product and the two temperature terms separately, and rounds the rates and the output weights to a shorter
  float format before the second product; the reference joins the twenty terms into one list per state and takes one
  matrix product.  On the extended reals a change of float format is the identity, a matrix product into zeros is the
  plain sum, addition is associative and commutative and multiplication commutative with no finiteness assumption, so
  both programs compute the one function `Cert.Crnn.du` of the arguments (Proof/RateLaw.lean): the kernel by
  Proof/BlockValue.lean (one block at an entry), Proof/WeightArrays.lean (the small arrays the region is launched on)
  and Proof/KernelValue.lean (from blocks to the array); the reference by Proof/ReferenceValue.lean.

  The idealization pass rewrote nothing, so the kernel's idealization is its own text read on the extended reals and
  `preserves` has no conjunct.  The three frames are the generated runs.
-/
import proofs.«101021_j10943576670318_2_alg».proof.Defs
import proofs.«101021_j10943576670318_2_alg».proof.Proof.Gen.Kernel
import proofs.«101021_j10943576670318_2_alg».proof.Proof.Gen.Kernel.Skeleton
import proofs.«101021_j10943576670318_2_alg».proof.Proof.Gen.Kernel.Launch
import proofs.«101021_j10943576670318_2_alg».proof.Proof.Gen.Kernel.Points
import proofs.«101021_j10943576670318_2_alg».proof.Proof.Gen.Kernel.Frame
import proofs.«101021_j10943576670318_2_alg».proof.Proof.Gen.KernelIdeal
import proofs.«101021_j10943576670318_2_alg».proof.Proof.Gen.KernelIdeal.Skeleton
import proofs.«101021_j10943576670318_2_alg».proof.Proof.Gen.KernelIdeal.Launch
import proofs.«101021_j10943576670318_2_alg».proof.Proof.Gen.KernelIdeal.Points
import proofs.«101021_j10943576670318_2_alg».proof.Proof.Gen.KernelIdeal.Frame
import proofs.«101021_j10943576670318_2_alg».proof.Proof.Gen.ReferenceIdeal
import proofs.«101021_j10943576670318_2_alg».proof.Proof.Gen.KernelIdeal.Value
import proofs.«101021_j10943576670318_2_alg».proof.Proof.Gen.ReferenceIdeal.Run
import proofs.«101021_j10943576670318_2_alg».proof.Proof.Gen.ReferenceIdeal.Read
import proofs.«101021_j10943576670318_2_alg».proof.Proof.Gen.Pre_finite_inputs
import proofs.«101021_j10943576670318_2_alg».proof.Proof.KernelValue
import proofs.«101021_j10943576670318_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at `du` of those
    arguments: the kernel by `Cert.Crnn.Kernel.run`, the reference by its generated run and `Cert.Crnn.Reference.result_eq`. -/
theorem algebraic : Cert.algebraic_KernelIdeal_ReferenceIdeal := by
  intro m ρ m' ρ' _ hagree
  refine ⟨fun c => Cert.Crnn.Kernel.result m c, Cert.Crnn.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v18_eq _ _ _ _ _).trans (Cert.Crnn.Reference.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
